-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S16384x1000 : S_.BroadcastsInDim S16384x1000 (![] : Fin 0 → Fin S16384x1000.rank)
  reducesTo_S16384x1000_S_d0_1 : S16384x1000.ReducesTo [0, 1] S_

variable [Facts]

def fn {F : FTy → Type} [FloatOps F] (main_arg0 : IVec S16384x1000 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S16384x1000 32 := broadcastInDim S16384x1000 ![] bcast_S_S16384x1000 main_c_0
  let main_v5 : IVec S16384x1000 1 := cmpi .eq main_arg0 main_v4
  let main_c_1 : IVec S_ 32 := constantI S_ 32 1#32
  let main_v6 : IVec S16384x1000 32 := broadcastInDim S16384x1000 ![] bcast_S_S16384x1000 main_c_1
  let main_v7 : IVec S16384x1000 1 := cmpi .eq main_arg0 main_v6
  let main_v8 : IVec S16384x1000 1 := ori main_v5 main_v7
  let main_c_2 : IVec S_ 1 := constantI S_ 1 1#1
  let main_v9 : IVec S_ 1 := (fun x v => Host.reduce IntOp.andi x v reducesTo_S16384x1000_S_d0_1 h_S_) main_v8 main_c_2
  let main_v10 : IVec S_ 1 := andi main_v3 main_v9
  main_v10
-- ==== Kernel.lean ====
abbrev S16384x1000 : Shape := ⟨2, ![16384, 1000]⟩
abbrev S1000x128 : Shape := ⟨2, ![1000, 128]⟩
abbrev S1000x16384 : Shape := ⟨2, ![1000, 16384]⟩
abbrev S128x1000 : Shape := ⟨2, ![128, 1000]⟩
abbrev S128x16384 : Shape := ⟨2, ![128, 16384]⟩
abbrev S16384x128 : Shape := ⟨2, ![16384, 128]⟩
abbrev S1000x1024 : Shape := ⟨2, ![1000, 1024]⟩
abbrev S128x4096 : Shape := ⟨2, ![128, 4096]⟩
abbrev S128x1024 : Shape := ⟨2, ![128, 1024]⟩

abbrev nBuf : Space → Nat
  | .hbm => 6
  | .vmem => 11
  | .smem => 0
  | _ => 0

abbrev bufTy : (tb : Table) → Fin (tcTables nBuf tb) → BufTy
  | .hbm, ⟨0, _⟩ => ⟨S16384x1000, .i32⟩
  | .hbm, ⟨1, _⟩ => ⟨S1000x128, .f32⟩
  | .hbm, ⟨2, _⟩ => ⟨S1000x16384, .i32⟩
  | .hbm, ⟨3, _⟩ => ⟨S128x1000, .f32⟩
  | .hbm, ⟨4, _⟩ => ⟨S128x16384, .f32⟩
  | .hbm, ⟨5, _⟩ => ⟨S16384x128, .f32⟩
  | .local _ .vmem, ⟨0, _⟩ => ⟨S1000x1024, .i32⟩
  | .local _ .vmem, ⟨1, _⟩ => ⟨S1000x1024, .i32⟩
  | .local _ .vmem, ⟨2, _⟩ => ⟨S1000x1024, .i32⟩
  | .local _ .vmem, ⟨3, _⟩ => ⟨S1000x1024, .i32⟩
  | .local _ .vmem, ⟨4, _⟩ => ⟨S1000x1024, .i32⟩
  | .local _ .vmem, ⟨5, _⟩ => ⟨S1000x1024, .i32⟩
  | .local _ .vmem, ⟨6, _⟩ => ⟨S1000x1024, .i32⟩
  | .local _ .vmem, ⟨7, _⟩ => ⟨S1000x1024, .i32⟩
  | .local _ .vmem, ⟨8, _⟩ => ⟨S128x1000, .f32⟩
  | .local _ .vmem, ⟨9, _⟩ => ⟨S128x4096, .f32⟩
  | .local _ .vmem, ⟨10, _⟩ => ⟨S128x4096, .f32⟩
  | _, _ => ⟨S16384x1000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1000x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16384x1000_S1000x16384_1_0 : S16384x1000.Transposes [1, 0] S1000x16384
  transposes_S1000x128_S128x1000_1_0 : S1000x128.Transposes [1, 0] S128x1000
  transposes_S128x16384_S16384x128_1_0 : S128x16384.Transposes [1, 0] S16384x128
  inb_S128x1000_S128x1000_0_0 : ∀ a, (![0, 0] : Fin 2 → Nat) a + S128x1000.size a ≤ S128x1000.size a
  h_S128x1000 : 0 < S128x1000.numel
  shapeCasts_S128x1000_S128x1000 : S128x1000.ShapeCasts S128x1000
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S128x4096_S128x1024_0_0 : ∀ a, (![0, 0] : Fin 2 → Nat) a + S128x1024.size a ≤ S128x4096.size a
  h_S128x1024 : 0 < S128x1024.numel
  inb_S128x4096_S128x1024_0_1024 : ∀ a, (![0, 1024] : Fin 2 → Nat) a + S128x1024.size a ≤ S128x4096.size a
  inb_S128x4096_S128x1024_0_2048 : ∀ a, (![0, 2048] : Fin 2 → Nat) a + S128x1024.size a ≤ S128x4096.size a
  inb_S128x4096_S128x1024_0_3072 : ∀ a, (![0, 3072] : Fin 2 → Nat) a + S128x1024.size a ≤ S128x4096.size a
  dot_S128x1000_S1000x1024_S128x1024_1_0_0_1_n_n_wf : DotDims.WF S128x1000 S1000x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S1000x16384.size a
  hwx0_0 : ∀ i : grid0.Coords, EltTy.bits .i32 = 32 ∨ (Rect.block (s := S1000x16384) S1000x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S1000x16384.size a
  hwx0_1 : ∀ i : grid0.Coords, EltTy.bits .i32 = 32 ∨ (Rect.block (s := S1000x16384) S1000x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S1000x16384.size a
  hwx0_2 : ∀ i : grid0.Coords, EltTy.bits .i32 = 32 ∨ (Rect.block (s := S1000x16384) S1000x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S1000x16384.size a
  hwx0_3 : ∀ i : grid0.Coords, EltTy.bits .i32 = 32 ∨ (Rect.block (s := S1000x16384) S1000x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1000.size a ≤ S128x1000.size a
  hwx0_4 : ∀ i : grid0.Coords, EltTy.bits .f32 = 32 ∨ (Rect.block (s := S128x1000) S128x1000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S128x16384.size a
  hwx0_5 : ∀ i : grid0.Coords, EltTy.bits .f32 = 32 ∨ (Rect.block (s := S128x16384) S128x4096.size (cc0_transform_5 i) (hinb0_5 i)).WholeWords (EltTy.packing .f32)

variable [Facts₀]

def dot_S128x1000_S1000x1024_S128x1024_1_0_0_1_n_n : DotDims S128x1000 S1000x1024 S128x1024 where
  lhsContracting := [1]
  rhsContracting := [0]
  lhsNonContracting := [0]
  rhsNonContracting := [1]
  lhsBatch := []
  rhsBatch := []
  wf := dot_S128x1000_S1000x1024_S128x1024_1_0_0_1_n_n_wf

abbrev win0_0 : Pipeline.Window sig grid0 :=
  Pipeline.Window.ofSpec (Memref.whole main_call0_v0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1000x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1000x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S128x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x128 : Shape := ⟨2, ![1000, 128]⟩
abbrev S_ : Shape := ⟨0, ![]⟩
abbrev S16384x128 : Shape := ⟨2, ![16384, 128]⟩

abbrev nBuf : Space → Nat
  | .hbm => 7
  | .vmem => 0
  | .smem => 0
  | _ => 0

abbrev bufTy : (tb : Table) → Fin (tcTables nBuf tb) → BufTy
  | .hbm, ⟨0, _⟩ => ⟨S16384x1000, .i32⟩
  | .hbm, ⟨1, _⟩ => ⟨S1000x128, .f32⟩
  | .hbm, ⟨2, _⟩ => ⟨S_, .i32⟩
  | .hbm, ⟨3, _⟩ => ⟨S16384x1000, .i32⟩
  | .hbm, ⟨4, _⟩ => ⟨S16384x1000, .i1⟩
  | .hbm, ⟨5, _⟩ => ⟨S16384x1000, .f32⟩
  | .hbm, ⟨6, _⟩ => ⟨S16384x128, .f32⟩
  | _, _ => ⟨S16384x1000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S16384x1000 : S_.BroadcastsInDim S16384x1000 (![] : Fin 0 → Fin S16384x1000.rank)
  dot_S16384x1000_S1000x128_S16384x128_1_0_0_1_n_n_wf : DotDims.WF S16384x1000 S1000x128 S16384x128 [1] [0] [0] [1] [] []

variable [Facts₀]

def dot_S16384x1000_S1000x128_S16384x128_1_0_0_1_n_n : DotDims S16384x1000 S1000x128 S16384x128 where
  lhsContracting := [1]
  rhsContracting := [0]
  lhsNonContracting := [0]
  rhsNonContracting := [1]
  lhsBatch := []
  rhsBatch := []
  wf := dot_S16384x1000_S1000x128_S16384x128_1_0_0_1_n_n_wf

class Facts : Prop extends Facts₀ where

variable [Facts]
-- ==== Proof.KernelBody.lean ====
/-
  The masked-matmul kernel's body, run once at a symbolic grid point (program Kernel).

  At every grid point the body reads the whole transposed table (a 128 × 1000 block) and four consecutive
  1000 × 1024 blocks of the transposed indicator matrix, converts each indicator block to floats, multiplies the
  table block by it, and stores the four 128 × 1024 products side by side into the 128 × 4096 output block.  The four
  stores tile the output block, so what the block holds afterwards is a function of the five input blocks alone
  (`outBlock`), whatever it held before (the body also loads the output block before each store and never uses
  the value).  The input blocks are left as found.
-/
import proofs.«116785_g39505109189164_cont_8to1_b_1271_15_alg».proof.Proof.Gen.Kernel.Launch
import proofs.«116785_g39505109189164_cont_8to1_b_1271_15_alg».proof.Proof.Gen.Kernel.Skeleton
import proofs.«116785_g39505109189164_cont_8to1_b_1271_15_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The buffers' contents when the region is entered: the launch contents after the two transposes. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles and what it leaves in the output block -/

abbrev rT : Rect S128x1000 := Rect.unit (s := S128x1000) ![0, 0] S128x1000.size inb_S128x1000_S128x1000_0_0
abbrev rX : Rect S1000x1024 := Rect.unit (s := S1000x1024) ![0, 0] S1000x1024.size inb_S1000x1024_S1000x1024_0_0
abbrev rO0 : Rect S128x4096 := Rect.unit (s := S128x4096) ![0, 0] S128x1024.size inb_S128x4096_S128x1024_0_0
abbrev rO1 : Rect S128x4096 := Rect.unit (s := S128x4096) ![0, 1024] S128x1024.size inb_S128x4096_S128x1024_0_1024
abbrev rO2 : Rect S128x4096 := Rect.unit (s := S128x4096) ![0, 2048] S128x1024.size inb_S128x4096_S128x1024_0_2048
abbrev rO3 : Rect S128x4096 := Rect.unit (s := S128x4096) ![0, 3072] S128x1024.size inb_S128x4096_S128x1024_0_3072

/-- The output block after the body, from the five input blocks: the four products laid side by side (the
    stores listed last first). -/
def outBlock (x0 x1 x2 x3 : Vec F S1000x1024 .i32) (x4 : Vec F S128x1000 .f32) : Vec F S128x4096 .f32 :=
  View.canon [⟨rO3, k0_pay5 (View.ld x4 rT) (View.ld x3 rX)⟩, ⟨rO2, k0_pay4 (View.ld x4 rT) (View.ld x2 rX)⟩,
    ⟨rO1, k0_pay3 (View.ld x4 rT) (View.ld x1 rX)⟩, ⟨rO0, k0_pay2 (View.ld x4 rT) (View.ld x0 rX)⟩]

/-- The four column bands of width 1024 tile the 128 × 4096 block. -/
theorem outCover (p3 p2 p1 p0 : Vec F S128x1024 .f32) (y : S128x4096.Idx) :
    ∃ pc ∈ ([⟨rO3, p3⟩, ⟨rO2, p2⟩, ⟨rO1, p1⟩, ⟨rO0, p0⟩] : List (View.Piece (Elt F) S128x4096 .f32)), y ∈ pc.1.set :=
  View.cover_of_tiled [⟨rO3, p3⟩, ⟨rO2, p2⟩, ⟨rO1, p1⟩, ⟨rO0, p0⟩] S128x1024.size (by rfl) y

/-! ## The body's triple -/

set_option maxHeartbeats 4000000 in
/-- The body on whole staging buffers — the inputs' at contents `x0 … x4`, the output's at anything — runs to its
    end leaving the inputs' as they were and the output's at `outBlock` of them. -/
theorem sound_kernel (c : Dev nD) (E : Set ℕ) (i : grid0.Coords)
    (arg1 : Memref sig .tc .vmem S1000x1024 .i32) (harg1 : arg1.IsWhole) (arg2 : Memref sig .tc .vmem S1000x1024 .i32) (harg2 : arg2.IsWhole)
    (arg3 : Memref sig .tc .vmem S1000x1024 .i32) (harg3 : arg3.IsWhole) (arg4 : Memref sig .tc .vmem S1000x1024 .i32) (harg4 : arg4.IsWhole)
    (arg5 : Memref sig .tc .vmem S128x1000 .f32) (harg5 : arg5.IsWhole) (arg6 : Memref sig .tc .vmem S128x4096 .f32) (harg6 : arg6.IsWhole)
    (x0 x1 x2 x3 : Vec F S1000x1024 .i32) (x4 : Vec F S128x1000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__masked_matmul_kernel i arg1 harg1 arg2 harg2 arg3 harg3 arg4 harg4 arg5 harg5 arg6 harg6) K := by
  simp only [cc0__masked_matmul_kernel_eq_skeleton]; unfold cc0__masked_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _ _ _ _)

end Cert.Kernel.Hand

end
-- ==== Proof.KernelData.lean ====
/-
  The pipeline's proof data for the masked-matmul kernel (program Kernel) and its body obligation.

  The four indicator windows read ONE array (the transposed indicator matrix) at four consecutive column blocks, so
  the core's full share of that array is dealt in four quarters, one per window; the table window and the output
  window hold their arrays outright.  After the body at point `t` every input window's staging buffer still holds
  its block, and the output window's holds `outBlock` of the five input blocks.
-/
import proofs.«116785_g39505109189164_cont_8to1_b_1271_15_alg».proof.Proof.KernelBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The share of its array each input window holds: the indicator array's four quarters, the table's whole. -/
def inShare : Fin cfg0.W → PosShare TreeShare
  | ⟨0, _⟩ => fullShare.left.left
  | ⟨1, _⟩ => fullShare.left.right
  | ⟨2, _⟩ => fullShare.right.left
  | ⟨3, _⟩ => fullShare.right.right
  | ⟨4, _⟩ => fullShare
  | ⟨5, _⟩ => fullShare

/-- The arrays as the region finds them; after the body each input's buffer at its block and the output's at
    `outBlock` of the input blocks; the invariant the untouched scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q := inShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlock (iblk m c 0 t) (iblk m c 1 t) (iblk m c 2 t) (iblk m c 3 t) (iblk m c 4 t) := by dsimp only [dats]

/-- An input window's current staging buffer holds its block at every point, fetched there or not: where it is not
    fetched its block index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibQuarterShares.lean ====
/-
  A buffer held at the full share is the same buffer held at four quarter shares (the two halves of each half of the
  share tree), at the same contents — and conversely.  What deals one array's full share among four input windows
  of a pipeline that read it at different blocks, and gives it back.
-/
import Idealize.ShloMosaic.Lib.Pipeline.Launch

noncomputable section

namespace Cert.Lib.QuarterShares

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A whole buffer at the full share is the buffer at its four quarter shares, at the same contents. -/
theorem pointsTo_quarters (ℓ : Loc nD τ sig) (f : Buf Val ℓ) :
    (ℓ ↦{fullShare} f : sProp 𝕄) ⊣⊢ iprop((ℓ ↦{fullShare.left.left} f) ∗ (ℓ ↦{fullShare.left.right} f) ∗ (ℓ ↦{fullShare.right.left} f) ∗ (ℓ ↦{fullShare.right.right} f)) := by
  constructor
  · iintro H
    ihave H := (pointsTo_share (PosShare.mem_left_op_right fullShare)).1 $$ H
    icases H with ⟨Hl, Hr⟩
    ihave Hl := (pointsTo_share (PosShare.mem_left_op_right fullShare.left)).1 $$ Hl
    ihave Hr := (pointsTo_share (PosShare.mem_left_op_right fullShare.right)).1 $$ Hr
    icases Hl with ⟨Hll, Hlr⟩
    icases Hr with ⟨Hrl, Hrr⟩
    isplitl [Hll]; · iexact Hll
    isplitl [Hlr]; · iexact Hlr
    isplitl [Hrl]; · iexact Hrl
    iexact Hrr
  · iintro ⟨Hll, Hlr, Hrl, Hrr⟩
    iapply (pointsTo_share (PosShare.mem_left_op_right fullShare)).2
    isplitl [Hll Hlr]
    · iapply (pointsTo_share (PosShare.mem_left_op_right fullShare.left)).2
      isplitl [Hll] <;> iassumption
    · iapply (pointsTo_share (PosShare.mem_left_op_right fullShare.right)).2
      isplitl [Hrl] <;> iassumption

end Cert.Lib.QuarterShares

end
-- ==== Proof.KernelShares.lean ====
/-
  How the arrays behind the kernel's six windows are held (program Kernel).

  Windows 0–3 all read the transposed indicator matrix, one buffer: the core's full share of it is the four quarter
  shares the windows hold, and conversely.  Window 4 (the transposed table) and window 5 (the output) each hold
  their own buffer whole.  So the three distinct buffers behind the arrays, each whole at the full share, ARE the
  pipeline's six arrays at their shares, at the same contents.
-/
import proofs.«116785_g39505109189164_cont_8to1_b_1271_15_alg».proof.Proof.KernelData
import proofs.«116785_g39505109189164_cont_8to1_b_1271_15_alg».proof.Proof.LibQuarterShares

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays are three buffers: the transposed indicators, the transposed table, the output. -/
theorem image_arr : (Finset.univ.image (Pipeline.arrRef spec0) : Finset (Ref sig .tc)) = {main_call0_v0, main_call0_v1, main_call0_v2} := by decide

/-! Each window's array, as the pipeline states it, is its buffer whole at the window's share. -/
theorem arr_0 (c : Dev nD) (X : Buf (Elt F) ((cfg0.win 0).arr.view.loc (c.tc : Thread nD τ))) :
    (View.loc c.tc (cfg0.win 0).arr.view ↦[(cfg0.win 0).arr.view.set]{(dats m 0 c).share 0} X : sProp 𝕄)
      = ((c.tc : Thread nD τ).loc main_call0_v0 ↦{fullShare.left.left} X) := by
  rw [(arr_whole0 0).set_eq_univ]; rfl
theorem arr_1 (c : Dev nD) (X : Buf (Elt F) ((cfg0.win 1).arr.view.loc (c.tc : Thread nD τ))) :
    (View.loc c.tc (cfg0.win 1).arr.view ↦[(cfg0.win 1).arr.view.set]{(dats m 0 c).share 1} X : sProp 𝕄)
      = ((c.tc : Thread nD τ).loc main_call0_v0 ↦{fullShare.left.right} X) := by
  rw [(arr_whole0 1).set_eq_univ]; rfl
theorem arr_2 (c : Dev nD) (X : Buf (Elt F) ((cfg0.win 2).arr.view.loc (c.tc : Thread nD τ))) :
    (View.loc c.tc (cfg0.win 2).arr.view ↦[(cfg0.win 2).arr.view.set]{(dats m 0 c).share 2} X : sProp 𝕄)
      = ((c.tc : Thread nD τ).loc main_call0_v0 ↦{fullShare.right.left} X) := by
  rw [(arr_whole0 2).set_eq_univ]; rfl
theorem arr_3 (c : Dev nD) (X : Buf (Elt F) ((cfg0.win 3).arr.view.loc (c.tc : Thread nD τ))) :
    (View.loc c.tc (cfg0.win 3).arr.view ↦[(cfg0.win 3).arr.view.set]{(dats m 0 c).share 3} X : sProp 𝕄)
      = ((c.tc : Thread nD τ).loc main_call0_v0 ↦{fullShare.right.right} X) := by
  rw [(arr_whole0 3).set_eq_univ]; rfl
theorem arr_4 (c : Dev nD) (X : Buf (Elt F) ((cfg0.win 4).arr.view.loc (c.tc : Thread nD τ))) :
    (View.loc c.tc (cfg0.win 4).arr.view ↦[(cfg0.win 4).arr.view.set]{(dats m 0 c).share 4} X : sProp 𝕄)
      = ((c.tc : Thread nD τ).loc main_call0_v1 ↦{fullShare} X) := by
  rw [(arr_whole0 4).set_eq_univ]; rfl
theorem arr_5 (c : Dev nD) (X : Buf (Elt F) ((cfg0.win 5).arr.view.loc (c.tc : Thread nD τ))) :
    (View.loc c.tc (cfg0.win 5).arr.view ↦[(cfg0.win 5).arr.view.set]{(dats m 0 c).share 5} X : sProp 𝕄)
      = ((c.tc : Thread nD τ).loc main_call0_v2 ↦{fullShare} X) := by
  rw [(arr_whole0 5).set_eq_univ]; rfl

/-- The six arrays at contents `X`, one by one. -/
theorem arrays_eq_chain (c : Dev nD) (X : (w : Fin cfg0.W) → Buf (Elt F) ((cfg0.win w).arr.view.loc (c.tc : Thread nD τ))) :
    ((dats m 0 c).arrays X : sProp 𝕄)
      = iprop(((c.tc : Thread nD τ).loc main_call0_v0 ↦{fullShare.left.left} X 0) ∗ ((c.tc : Thread nD τ).loc main_call0_v0 ↦{fullShare.left.right} X 1)
          ∗ ((c.tc : Thread nD τ).loc main_call0_v0 ↦{fullShare.right.left} X 2) ∗ ((c.tc : Thread nD τ).loc main_call0_v0 ↦{fullShare.right.right} X 3)
          ∗ ((c.tc : Thread nD τ).loc main_call0_v1 ↦{fullShare} X 4) ∗ ((c.tc : Thread nD τ).loc main_call0_v2 ↦{fullShare} X 5)) := by
  unfold Dat.arrays
  rw [bigSep_W0, arr_0, arr_1, arr_2, arr_3, arr_4, arr_5]

/-- At the region's entry every array holds what its buffer held (`V`). -/
theorem arrAt_zero (c : Dev nD) (w : Fin cfg0.W) : (dats m 0 c).arrAt w 0 = V m c (Pipeline.arrRef spec0 w) := rfl

/-- ENTRY: the three buffers behind the arrays, whole at the region-entry contents, are the six arrays at entry. -/
theorem arrays_entry (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrays_eq_chain]
  unfold Pipeline.arrBufs
  rw [image_arr, bigSep_insert (by decide), bigSep_insert (by decide), bigSep_singleton]
  refine (show iprop(((c.tc : Thread nD τ).loc main_call0_v0 ↦{fullShare} V m c main_call0_v0)
      ∗ ((c.tc : Thread nD τ).loc main_call0_v1 ↦{fullShare} V m c main_call0_v1)
      ∗ ((c.tc : Thread nD τ).loc main_call0_v2 ↦{fullShare} V m c main_call0_v2)) ⊢ _ from ?_)
  iintro ⟨H0, H1, H2⟩
  ihave H0 := (Cert.Lib.QuarterShares.pointsTo_quarters _ _).1 $$ H0
  icases H0 with ⟨Ha, Hb, Hc, Hd⟩
  isplitl [Ha]; · iexact Ha
  isplitl [Hb]; · iexact Hb
  isplitl [Hc]; · iexact Hc
  isplitl [Hd]; · iexact Hd
  isplitl [H1]; · iexact H1
  iexact H2

end Cert.Kernel.Hand

end
-- ==== Proof.KernelRun.lean ====
/-
  The run of the masked-matmul program (program Kernel): two transposes, the pipelined kernel, a closing transpose.

  The launch is stated against the pipeline library's region rule directly, because four of the kernel's windows
  read one array: at the region's entry the three distinct buffers behind the six arrays are dealt to the windows
  (the indicator array in quarter shares), the body runs at every grid point, and at the exit the closing transpose
  runs holding only the output array and the result buffer.  A final memory then has the output array at what the
  pipeline computes from the body's write-backs, the result buffer at its transpose, and the arguments untouched.
-/
import proofs.«116785_g39505109189164_cont_8to1_b_1271_15_alg».proof.Proof.KernelShares

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two transposes, the region, the closing transpose: it reduces to the region continued by the
    closing transpose, at the contents after the first two. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The closing transpose -/

/-- The output array when the region is left: every block written back. -/
abbrev outArr (c : Dev nD) : (⟨S128x16384, .f32⟩ : BufTy).Contents (Elt F) := (dats m 0 c).arrAt 5 cfg0.N

/-- The program's result: the output array transposed. -/
abbrev resArr (c : Dev nD) : (⟨S16384x128, .f32⟩ : BufTy).Contents (Elt F) :=
  transpose S16384x128 [1, 0] (outArr m c) Gen.transposes_S128x16384_S16384x128_1_0

/-- The buffers' contents when the region is left, as far as the closing transpose reads them: the output array at
    `outArr`, every other buffer as the region found it. -/
def exitVal (c : Dev nD) : Valuation τ sig (Elt F) := (StableHlo.nullary main_call0_v2 (outArr m c)).result (V0 m c)

/-- The two buffers the closing transpose touches. -/
def tailBufs : Finset (DevRef τ sig) := {Proc.devRef .tc main_call0_v2, Proc.devRef .tc main_v0}

/-- What bypasses the region, at the end: the two arguments as the region found them, the result buffer at `resArr`. -/
def restEnd (c : Dev nD) : sProp 𝕄 :=
  iprop(((c.tc : Thread nD τ).loc main_arg0 ↦{fullShare} V m c main_arg0) ∗ ((c.tc : Thread nD τ).loc main_arg1 ↦{fullShare} V m c main_arg1)
    ∗ ((c.tc : Thread nD τ).loc main_v0 ↦{fullShare} resArr m c))

theorem exitVal_out (c : Dev nD) : exitVal m c (Proc.devRef .tc main_call0_v2) = outArr m c :=
  StableHlo.nullary_result _ _ _ _
theorem exitVal_res (c : Dev nD) : exitVal m c (Proc.devRef .tc main_v0) = V m c main_v0 := by
  unfold exitVal
  exact StableHlo.nullary_result_ne _ _ _ _ (by decide)

/-- The two buffers the closing transpose touches, as the region leaves them. -/
theorem held_exit (c : Dev nD) :
    (StableHlo.held (c.tc : Thread nD τ) tailBufs (exitVal m c) : sProp 𝕄)
      = iprop(((c.tc : Thread nD τ).loc main_call0_v2 ↦{fullShare} outArr m c) ∗ ((c.tc : Thread nD τ).loc main_v0 ↦{fullShare} V m c main_v0)) := by
  unfold StableHlo.held tailBufs
  rw [bigSep_insert (by decide), bigSep_singleton, exitVal_out, exitVal_res]
  rfl

theorem endVal_out (c : Dev nD) :
    StableHlo.after (List.flatten [hostOps1]) (exitVal m c) (Proc.devRef .tc main_call0_v2) = outArr m c := by
  rw [StableHlo.after_of_forall_not_mem (b := Proc.devRef .tc main_call0_v2) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))), exitVal_out]

theorem endVal_res (c : Dev nD) :
    StableHlo.after (List.flatten [hostOps1]) (exitVal m c) (Proc.devRef .tc main_v0) = resArr m c := by
  show StableHlo.after hostOps1 (exitVal m c) (Proc.devRef .tc main_v0) = _
  after_results
  rw [exitVal_out]
  rfl

/-- And after the closing transpose. -/
theorem held_end (c : Dev nD) :
    (StableHlo.held (c.tc : Thread nD τ) tailBufs (StableHlo.after (List.flatten [hostOps1]) (exitVal m c)) : sProp 𝕄)
      = iprop(((c.tc : Thread nD τ).loc main_call0_v2 ↦{fullShare} outArr m c) ∗ ((c.tc : Thread nD τ).loc main_v0 ↦{fullShare} resArr m c)) := by
  unfold StableHlo.held tailBufs
  rw [bigSep_insert (by decide), bigSep_singleton, endVal_out, endVal_res]
  rfl

theorem tail_sub : ∀ ops ∈ ([hostOps1] : List (List (HloOp τ sig (Elt F)))), ∀ op ∈ ops, op.bufs ⊆ tailBufs := by
  intro ops hops op hop
  simp only [List.mem_cons, List.mem_nil_iff, or_false] at hops
  subst hops
  simp only [hostOps1, List.mem_cons, List.mem_nil_iff, or_false] at hop
  subst hop
  exact subset_rfl

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- THE CLOSING TRANSPOSE: from the region's exit — the six arrays at their final contents (the indicator array
    still in quarters), and the buffers that bypassed the region — it runs holding only the output array and the
    result buffer, and hands everything back with the result buffer at the transposed output. -/
theorem htail (𝒱₀ : Variants) (c : Dev nD) (Q' : PUnit → sProp 𝕄) :
    iprop((iprop((dats m 0 c).arrays (fun w => (dats m 0 c).arrAt w cfg0.N) ∗ restEnd m c) -∗ Q' ⟨⟩)
        ∗ boundary (c.tc : Thread nD τ) ∗ (dats m 0 c).arrays (fun w => (dats m 0 c).arrAt w cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  have hw := Pipeline.wp_seqs_then (K := Q') (fun q => (cfgs q).toPCfg (Val := Elt F)) defs₀ 𝒱₀ c tailBufs [] [hostOps1] tail_sub tail_fresh (exitVal m c)
  rw [held_exit, held_end, Pipeline.chain_nil, wp_pure] at hw
  rw [arrays_eq_chain, Pipeline.unscopedRestP_none, unscopedRest0_eq]
  iintro ⟨Hk, Hb, ⟨A0, A1, A2, A3, A4, A5⟩, ⟨R0, R1, R2⟩⟩
  ihave Hw := hw $$ [Hb A5 R2]
  · isplitl [Hb]; · iexact Hb
    isplitl [A5]; · iexact A5
    iexact R2
  iapply Hw
  iintro ⟨Hb, A5, R2⟩
  imodintro
  iapply Hk
  isplitl [A0 A1 A2 A3 A4 A5]
  · isplitl [A0]; · iexact A0
    isplitl [A1]; · iexact A1
    isplitl [A2]; · iexact A2
    isplitl [A3]; · iexact A3
    isplitl [A4]; · iexact A4
    iexact A5
  · unfold restEnd
    isplitl [R0]; · iexact R0
    isplitl [R1]; · iexact R1
    iexact R2

/-! ## The run -/

/-- What is read of a final memory besides the arrays: the arguments as the region found them, the result buffer at
    the transposed output array. -/
def restRead (c : Dev nD) (s : MemSt nD τ sig (Elt F)) : Prop :=
  s.mem ((c.tc : Thread nD τ).loc main_arg0) = V m c main_arg0 ∧ s.mem ((c.tc : Thread nD τ).loc main_arg1) = V m c main_arg1
    ∧ s.mem ((c.tc : Thread nD τ).loc main_v0) = resArr m c

set_option backward.isDefEq.respectTransparency.types false in
/-- From any memory with zero counters every weakly fair execution of @main terminates, and every final memory has
    each of the six arrays at what the pipeline computes from the proof data, the arguments as the region found them
    and the result buffer at the transposed output array. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N) ∧ restRead m c r.2) := by
  classical
  exact Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := arrays_entry m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := restEnd m)
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m Variants.none)
    (QY := restRead m)
    (hY := fun c s' => by
      iintro ⟨-, HU, HSI⟩
      unfold restEnd
      icases HU with ⟨R0, R1, R2⟩
      imodintro
      icombine HSI R0 gives %h0
      icombine HSI R1 gives %h1
      icombine HSI R2 gives %h2
      isplitr
      · ipureintro; exact ⟨Buf.eq_of_forall_mem_univ h0, Buf.eq_of_forall_mem_univ h1, Buf.eq_of_forall_mem_univ h2⟩
      iexact HSI)
    (hQ := fun s h c => ⟨(h c).1, (h c).2.2⟩)

/-! ## The frame -/

/-- Neither transpose before the region writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))

/-- The program runs to its end, faults nowhere, and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (V_main_arg0 m c), (h c).2.2.1.trans (V_main_arg1 m c)⟩) (run_main m ρ)

end Cert.Kernel.Hand

end
-- ==== Proof.KernelIdealBody.lean ====
/-
  The masked-matmul kernel's body, run once at a symbolic grid point (program KernelIdeal).

  At every grid point the body reads the whole transposed table (a 128 × 1000 block) and four consecutive
  1000 × 1024 blocks of the transposed indicator matrix, converts each indicator block to floats, multiplies the
  table block by it, and stores the four 128 × 1024 products side by side into the 128 × 4096 output block.  The four
  stores tile the output block, so what the block holds afterwards is a function of the five input blocks alone
  (`outBlock`), whatever it held before (the body also loads the output block before each store and never uses
  the value).  The input blocks are left as found.
-/
import proofs.«116785_g39505109189164_cont_8to1_b_1271_15_alg».proof.Proof.Gen.KernelIdeal.Launch
import proofs.«116785_g39505109189164_cont_8to1_b_1271_15_alg».proof.Proof.Gen.KernelIdeal.Skeleton
import proofs.«116785_g39505109189164_cont_8to1_b_1271_15_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The buffers' contents when the region is entered: the launch contents after the two transposes. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles and what it leaves in the output block -/

abbrev rT : Rect S128x1000 := Rect.unit (s := S128x1000) ![0, 0] S128x1000.size inb_S128x1000_S128x1000_0_0
abbrev rX : Rect S1000x1024 := Rect.unit (s := S1000x1024) ![0, 0] S1000x1024.size inb_S1000x1024_S1000x1024_0_0
abbrev rO0 : Rect S128x4096 := Rect.unit (s := S128x4096) ![0, 0] S128x1024.size inb_S128x4096_S128x1024_0_0
abbrev rO1 : Rect S128x4096 := Rect.unit (s := S128x4096) ![0, 1024] S128x1024.size inb_S128x4096_S128x1024_0_1024
abbrev rO2 : Rect S128x4096 := Rect.unit (s := S128x4096) ![0, 2048] S128x1024.size inb_S128x4096_S128x1024_0_2048
abbrev rO3 : Rect S128x4096 := Rect.unit (s := S128x4096) ![0, 3072] S128x1024.size inb_S128x4096_S128x1024_0_3072

/-- The output block after the body, from the five input blocks: the four products laid side by side (the
    stores listed last first). -/
def outBlock (x0 x1 x2 x3 : Vec F S1000x1024 .i32) (x4 : Vec F S128x1000 .f32) : Vec F S128x4096 .f32 :=
  View.canon [⟨rO3, k0_pay5 (View.ld x4 rT) (View.ld x3 rX)⟩, ⟨rO2, k0_pay4 (View.ld x4 rT) (View.ld x2 rX)⟩,
    ⟨rO1, k0_pay3 (View.ld x4 rT) (View.ld x1 rX)⟩, ⟨rO0, k0_pay2 (View.ld x4 rT) (View.ld x0 rX)⟩]

/-- The four column bands of width 1024 tile the 128 × 4096 block. -/
theorem outCover (p3 p2 p1 p0 : Vec F S128x1024 .f32) (y : S128x4096.Idx) :
    ∃ pc ∈ ([⟨rO3, p3⟩, ⟨rO2, p2⟩, ⟨rO1, p1⟩, ⟨rO0, p0⟩] : List (View.Piece (Elt F) S128x4096 .f32)), y ∈ pc.1.set :=
  View.cover_of_tiled [⟨rO3, p3⟩, ⟨rO2, p2⟩, ⟨rO1, p1⟩, ⟨rO0, p0⟩] S128x1024.size (by rfl) y

/-! ## The body's triple -/

set_option maxHeartbeats 4000000 in
/-- The body on whole staging buffers — the inputs' at contents `x0 … x4`, the output's at anything — runs to its
    end leaving the inputs' as they were and the output's at `outBlock` of them. -/
theorem sound_kernel (c : Dev nD) (E : Set ℕ) (i : grid0.Coords)
    (arg1 : Memref sig .tc .vmem S1000x1024 .i32) (harg1 : arg1.IsWhole) (arg2 : Memref sig .tc .vmem S1000x1024 .i32) (harg2 : arg2.IsWhole)
    (arg3 : Memref sig .tc .vmem S1000x1024 .i32) (harg3 : arg3.IsWhole) (arg4 : Memref sig .tc .vmem S1000x1024 .i32) (harg4 : arg4.IsWhole)
    (arg5 : Memref sig .tc .vmem S128x1000 .f32) (harg5 : arg5.IsWhole) (arg6 : Memref sig .tc .vmem S128x4096 .f32) (harg6 : arg6.IsWhole)
    (x0 x1 x2 x3 : Vec F S1000x1024 .i32) (x4 : Vec F S128x1000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__masked_matmul_kernel i arg1 harg1 arg2 harg2 arg3 harg3 arg4 harg4 arg5 harg5 arg6 harg6) K := by
  simp only [cc0__masked_matmul_kernel_eq_skeleton]; unfold cc0__masked_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _ _ _ _)

end Cert.KernelIdeal.Hand

end
-- ==== Proof.KernelIdealData.lean ====
/-
  The pipeline's proof data for the masked-matmul kernel (program KernelIdeal) and its body obligation.

  The four indicator windows read ONE array (the transposed indicator matrix) at four consecutive column blocks, so
  the core's full share of that array is dealt in four quarters, one per window; the table window and the output
  window hold their arrays outright.  After the body at point `t` every input window's staging buffer still holds
  its block, and the output window's holds `outBlock` of the five input blocks.
-/
import proofs.«116785_g39505109189164_cont_8to1_b_1271_15_alg».proof.Proof.KernelIdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The share of its array each input window holds: the indicator array's four quarters, the table's whole. -/
def inShare : Fin cfg0.W → PosShare TreeShare
  | ⟨0, _⟩ => fullShare.left.left
  | ⟨1, _⟩ => fullShare.left.right
  | ⟨2, _⟩ => fullShare.right.left
  | ⟨3, _⟩ => fullShare.right.right
  | ⟨4, _⟩ => fullShare
  | ⟨5, _⟩ => fullShare

/-- The arrays as the region finds them; after the body each input's buffer at its block and the output's at
    `outBlock` of the input blocks; the invariant the untouched scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q := inShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlock (iblk m c 0 t) (iblk m c 1 t) (iblk m c 2 t) (iblk m c 3 t) (iblk m c 4 t) := by dsimp only [dats]

/-- An input window's current staging buffer holds its block at every point, fetched there or not: where it is not
    fetched its block index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealShares.lean ====
/-
  How the arrays behind the kernel's six windows are held (program KernelIdeal).

  Windows 0–3 all read the transposed indicator matrix, one buffer: the core's full share of it is the four quarter
  shares the windows hold, and conversely.  Window 4 (the transposed table) and window 5 (the output) each hold
  their own buffer whole.  So the three distinct buffers behind the arrays, each whole at the full share, ARE the
  pipeline's six arrays at their shares, at the same contents.
-/
import proofs.«116785_g39505109189164_cont_8to1_b_1271_15_alg».proof.Proof.KernelIdealData
import proofs.«116785_g39505109189164_cont_8to1_b_1271_15_alg».proof.Proof.LibQuarterShares

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays are three buffers: the transposed indicators, the transposed table, the output. -/
theorem image_arr : (Finset.univ.image (Pipeline.arrRef spec0) : Finset (Ref sig .tc)) = {main_call0_v0, main_call0_v1, main_call0_v2} := by decide

/-! Each window's array, as the pipeline states it, is its buffer whole at the window's share. -/
theorem arr_0 (c : Dev nD) (X : Buf (Elt F) ((cfg0.win 0).arr.view.loc (c.tc : Thread nD τ))) :
    (View.loc c.tc (cfg0.win 0).arr.view ↦[(cfg0.win 0).arr.view.set]{(dats m 0 c).share 0} X : sProp 𝕄)
      = ((c.tc : Thread nD τ).loc main_call0_v0 ↦{fullShare.left.left} X) := by
  rw [(arr_whole0 0).set_eq_univ]; rfl
theorem arr_1 (c : Dev nD) (X : Buf (Elt F) ((cfg0.win 1).arr.view.loc (c.tc : Thread nD τ))) :
    (View.loc c.tc (cfg0.win 1).arr.view ↦[(cfg0.win 1).arr.view.set]{(dats m 0 c).share 1} X : sProp 𝕄)
      = ((c.tc : Thread nD τ).loc main_call0_v0 ↦{fullShare.left.right} X) := by
  rw [(arr_whole0 1).set_eq_univ]; rfl
theorem arr_2 (c : Dev nD) (X : Buf (Elt F) ((cfg0.win 2).arr.view.loc (c.tc : Thread nD τ))) :
    (View.loc c.tc (cfg0.win 2).arr.view ↦[(cfg0.win 2).arr.view.set]{(dats m 0 c).share 2} X : sProp 𝕄)
      = ((c.tc : Thread nD τ).loc main_call0_v0 ↦{fullShare.right.left} X) := by
  rw [(arr_whole0 2).set_eq_univ]; rfl
theorem arr_3 (c : Dev nD) (X : Buf (Elt F) ((cfg0.win 3).arr.view.loc (c.tc : Thread nD τ))) :
    (View.loc c.tc (cfg0.win 3).arr.view ↦[(cfg0.win 3).arr.view.set]{(dats m 0 c).share 3} X : sProp 𝕄)
      = ((c.tc : Thread nD τ).loc main_call0_v0 ↦{fullShare.right.right} X) := by
  rw [(arr_whole0 3).set_eq_univ]; rfl
theorem arr_4 (c : Dev nD) (X : Buf (Elt F) ((cfg0.win 4).arr.view.loc (c.tc : Thread nD τ))) :
    (View.loc c.tc (cfg0.win 4).arr.view ↦[(cfg0.win 4).arr.view.set]{(dats m 0 c).share 4} X : sProp 𝕄)
      = ((c.tc : Thread nD τ).loc main_call0_v1 ↦{fullShare} X) := by
  rw [(arr_whole0 4).set_eq_univ]; rfl
theorem arr_5 (c : Dev nD) (X : Buf (Elt F) ((cfg0.win 5).arr.view.loc (c.tc : Thread nD τ))) :
    (View.loc c.tc (cfg0.win 5).arr.view ↦[(cfg0.win 5).arr.view.set]{(dats m 0 c).share 5} X : sProp 𝕄)
      = ((c.tc : Thread nD τ).loc main_call0_v2 ↦{fullShare} X) := by
  rw [(arr_whole0 5).set_eq_univ]; rfl

/-- The six arrays at contents `X`, one by one. -/
theorem arrays_eq_chain (c : Dev nD) (X : (w : Fin cfg0.W) → Buf (Elt F) ((cfg0.win w).arr.view.loc (c.tc : Thread nD τ))) :
    ((dats m 0 c).arrays X : sProp 𝕄)
      = iprop(((c.tc : Thread nD τ).loc main_call0_v0 ↦{fullShare.left.left} X 0) ∗ ((c.tc : Thread nD τ).loc main_call0_v0 ↦{fullShare.left.right} X 1)
          ∗ ((c.tc : Thread nD τ).loc main_call0_v0 ↦{fullShare.right.left} X 2) ∗ ((c.tc : Thread nD τ).loc main_call0_v0 ↦{fullShare.right.right} X 3)
          ∗ ((c.tc : Thread nD τ).loc main_call0_v1 ↦{fullShare} X 4) ∗ ((c.tc : Thread nD τ).loc main_call0_v2 ↦{fullShare} X 5)) := by
  unfold Dat.arrays
  rw [bigSep_W0, arr_0, arr_1, arr_2, arr_3, arr_4, arr_5]

/-- At the region's entry every array holds what its buffer held (`V`). -/
theorem arrAt_zero (c : Dev nD) (w : Fin cfg0.W) : (dats m 0 c).arrAt w 0 = V m c (Pipeline.arrRef spec0 w) := rfl

/-- ENTRY: the three buffers behind the arrays, whole at the region-entry contents, are the six arrays at entry. -/
theorem arrays_entry (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrays_eq_chain]
  unfold Pipeline.arrBufs
  rw [image_arr, bigSep_insert (by decide), bigSep_insert (by decide), bigSep_singleton]
  refine (show iprop(((c.tc : Thread nD τ).loc main_call0_v0 ↦{fullShare} V m c main_call0_v0)
      ∗ ((c.tc : Thread nD τ).loc main_call0_v1 ↦{fullShare} V m c main_call0_v1)
      ∗ ((c.tc : Thread nD τ).loc main_call0_v2 ↦{fullShare} V m c main_call0_v2)) ⊢ _ from ?_)
  iintro ⟨H0, H1, H2⟩
  ihave H0 := (Cert.Lib.QuarterShares.pointsTo_quarters _ _).1 $$ H0
  icases H0 with ⟨Ha, Hb, Hc, Hd⟩
  isplitl [Ha]; · iexact Ha
  isplitl [Hb]; · iexact Hb
  isplitl [Hc]; · iexact Hc
  isplitl [Hd]; · iexact Hd
  isplitl [H1]; · iexact H1
  iexact H2

end Cert.KernelIdeal.Hand

end
-- ==== Proof.KernelIdealRun.lean ====
/-
  The run of the masked-matmul program (program KernelIdeal): two transposes, the pipelined kernel, a closing transpose.

  The launch is stated against the pipeline library's region rule directly, because four of the kernel's windows
  read one array: at the region's entry the three distinct buffers behind the six arrays are dealt to the windows
  (the indicator array in quarter shares), the body runs at every grid point, and at the exit the closing transpose
  runs holding only the output array and the result buffer.  A final memory then has the output array at what the
  pipeline computes from the body's write-backs, the result buffer at its transpose, and the arguments untouched.
-/
import proofs.«116785_g39505109189164_cont_8to1_b_1271_15_alg».proof.Proof.KernelIdealShares

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two transposes, the region, the closing transpose: it reduces to the region continued by the
    closing transpose, at the contents after the first two. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The closing transpose -/

/-- The output array when the region is left: every block written back. -/
abbrev outArr (c : Dev nD) : (⟨S128x16384, .f32⟩ : BufTy).Contents (Elt F) := (dats m 0 c).arrAt 5 cfg0.N

/-- The program's result: the output array transposed. -/
abbrev resArr (c : Dev nD) : (⟨S16384x128, .f32⟩ : BufTy).Contents (Elt F) :=
  transpose S16384x128 [1, 0] (outArr m c) Gen.transposes_S128x16384_S16384x128_1_0

/-- The buffers' contents when the region is left, as far as the closing transpose reads them: the output array at
    `outArr`, every other buffer as the region found it. -/
def exitVal (c : Dev nD) : Valuation τ sig (Elt F) := (StableHlo.nullary main_call0_v2 (outArr m c)).result (V0 m c)

/-- The two buffers the closing transpose touches. -/
def tailBufs : Finset (DevRef τ sig) := {Proc.devRef .tc main_call0_v2, Proc.devRef .tc main_v0}

/-- What bypasses the region, at the end: the two arguments as the region found them, the result buffer at `resArr`. -/
def restEnd (c : Dev nD) : sProp 𝕄 :=
  iprop(((c.tc : Thread nD τ).loc main_arg0 ↦{fullShare} V m c main_arg0) ∗ ((c.tc : Thread nD τ).loc main_arg1 ↦{fullShare} V m c main_arg1)
    ∗ ((c.tc : Thread nD τ).loc main_v0 ↦{fullShare} resArr m c))

theorem exitVal_out (c : Dev nD) : exitVal m c (Proc.devRef .tc main_call0_v2) = outArr m c :=
  StableHlo.nullary_result _ _ _ _
theorem exitVal_res (c : Dev nD) : exitVal m c (Proc.devRef .tc main_v0) = V m c main_v0 := by
  unfold exitVal
  exact StableHlo.nullary_result_ne _ _ _ _ (by decide)

/-- The two buffers the closing transpose touches, as the region leaves them. -/
theorem held_exit (c : Dev nD) :
    (StableHlo.held (c.tc : Thread nD τ) tailBufs (exitVal m c) : sProp 𝕄)
      = iprop(((c.tc : Thread nD τ).loc main_call0_v2 ↦{fullShare} outArr m c) ∗ ((c.tc : Thread nD τ).loc main_v0 ↦{fullShare} V m c main_v0)) := by
  unfold StableHlo.held tailBufs
  rw [bigSep_insert (by decide), bigSep_singleton, exitVal_out, exitVal_res]
  rfl

theorem endVal_out (c : Dev nD) :
    StableHlo.after (List.flatten [hostOps1]) (exitVal m c) (Proc.devRef .tc main_call0_v2) = outArr m c := by
  rw [StableHlo.after_of_forall_not_mem (b := Proc.devRef .tc main_call0_v2) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))), exitVal_out]

theorem endVal_res (c : Dev nD) :
    StableHlo.after (List.flatten [hostOps1]) (exitVal m c) (Proc.devRef .tc main_v0) = resArr m c := by
  show StableHlo.after hostOps1 (exitVal m c) (Proc.devRef .tc main_v0) = _
  after_results
  rw [exitVal_out]
  rfl

/-- And after the closing transpose. -/
theorem held_end (c : Dev nD) :
    (StableHlo.held (c.tc : Thread nD τ) tailBufs (StableHlo.after (List.flatten [hostOps1]) (exitVal m c)) : sProp 𝕄)
      = iprop(((c.tc : Thread nD τ).loc main_call0_v2 ↦{fullShare} outArr m c) ∗ ((c.tc : Thread nD τ).loc main_v0 ↦{fullShare} resArr m c)) := by
  unfold StableHlo.held tailBufs
  rw [bigSep_insert (by decide), bigSep_singleton, endVal_out, endVal_res]
  rfl

theorem tail_sub : ∀ ops ∈ ([hostOps1] : List (List (HloOp τ sig (Elt F)))), ∀ op ∈ ops, op.bufs ⊆ tailBufs := by
  intro ops hops op hop
  simp only [List.mem_cons, List.mem_nil_iff, or_false] at hops
  subst hops
  simp only [hostOps1, List.mem_cons, List.mem_nil_iff, or_false] at hop
  subst hop
  exact subset_rfl

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- THE CLOSING TRANSPOSE: from the region's exit — the six arrays at their final contents (the indicator array
    still in quarters), and the buffers that bypassed the region — it runs holding only the output array and the
    result buffer, and hands everything back with the result buffer at the transposed output. -/
theorem htail (𝒱₀ : Variants) (c : Dev nD) (Q' : PUnit → sProp 𝕄) :
    iprop((iprop((dats m 0 c).arrays (fun w => (dats m 0 c).arrAt w cfg0.N) ∗ restEnd m c) -∗ Q' ⟨⟩)
        ∗ boundary (c.tc : Thread nD τ) ∗ (dats m 0 c).arrays (fun w => (dats m 0 c).arrAt w cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  have hw := Pipeline.wp_seqs_then (K := Q') (fun q => (cfgs q).toPCfg (Val := Elt F)) defs₀ 𝒱₀ c tailBufs [] [hostOps1] tail_sub tail_fresh (exitVal m c)
  rw [held_exit, held_end, Pipeline.chain_nil, wp_pure] at hw
  rw [arrays_eq_chain, Pipeline.unscopedRestP_none, unscopedRest0_eq]
  iintro ⟨Hk, Hb, ⟨A0, A1, A2, A3, A4, A5⟩, ⟨R0, R1, R2⟩⟩
  ihave Hw := hw $$ [Hb A5 R2]
  · isplitl [Hb]; · iexact Hb
    isplitl [A5]; · iexact A5
    iexact R2
  iapply Hw
  iintro ⟨Hb, A5, R2⟩
  imodintro
  iapply Hk
  isplitl [A0 A1 A2 A3 A4 A5]
  · isplitl [A0]; · iexact A0
    isplitl [A1]; · iexact A1
    isplitl [A2]; · iexact A2
    isplitl [A3]; · iexact A3
    isplitl [A4]; · iexact A4
    iexact A5
  · unfold restEnd
    isplitl [R0]; · iexact R0
    isplitl [R1]; · iexact R1
    iexact R2

/-! ## The run -/

/-- What is read of a final memory besides the arrays: the arguments as the region found them, the result buffer at
    the transposed output array. -/
def restRead (c : Dev nD) (s : MemSt nD τ sig (Elt F)) : Prop :=
  s.mem ((c.tc : Thread nD τ).loc main_arg0) = V m c main_arg0 ∧ s.mem ((c.tc : Thread nD τ).loc main_arg1) = V m c main_arg1
    ∧ s.mem ((c.tc : Thread nD τ).loc main_v0) = resArr m c

set_option backward.isDefEq.respectTransparency.types false in
/-- From any memory with zero counters every weakly fair execution of @main terminates, and every final memory has
    each of the six arrays at what the pipeline computes from the proof data, the arguments as the region found them
    and the result buffer at the transposed output array. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N) ∧ restRead m c r.2) := by
  classical
  exact Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := arrays_entry m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := restEnd m)
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m Variants.none)
    (QY := restRead m)
    (hY := fun c s' => by
      iintro ⟨-, HU, HSI⟩
      unfold restEnd
      icases HU with ⟨R0, R1, R2⟩
      imodintro
      icombine HSI R0 gives %h0
      icombine HSI R1 gives %h1
      icombine HSI R2 gives %h2
      isplitr
      · ipureintro; exact ⟨Buf.eq_of_forall_mem_univ h0, Buf.eq_of_forall_mem_univ h1, Buf.eq_of_forall_mem_univ h2⟩
      iexact HSI)
    (hQ := fun s h c => ⟨(h c).1, (h c).2.2⟩)

/-! ## The frame -/

/-- Neither transpose before the region writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))

/-- The program runs to its end, faults nowhere, and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (V_main_arg0 m c), (h c).2.2.1.trans (V_main_arg1 m c)⟩) (run_main m ρ)

end Cert.KernelIdeal.Hand

end
-- ==== Proof.KernelIdealValue.lean ====
/-
  What the masked-matmul kernel computes, at the ideal instance.

  At grid point `t` the output window's block is four side-by-side products: band `b` is the transposed table
  (128 × 1000) times the indicator block at column block `4t + b` (1000 × 1024), the indicator words read as signed
  integers.  Column `1024 b + q` of output block `t` is therefore column `4096 t + 1024 b + q` of one
  whole-array product `outSpec`: entry `(d, n)` is the sum over `k` of `tableᵀ(d, k) · xᵀ(k, n)`.  The four blocks
  tile the output array, so the array ends at `outSpec`; the transposes before and after the region then make the
  program's result `resSpec`: entry `(n, d)` is the sum over `k` of `table(k, d) · x(n, k)`.
-/
import proofs.«116785_g39505109189164_cont_8to1_b_1271_15_alg».proof.Proof.KernelIdealRun
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

/-! ## One band's product at an index -/

theorem dot_lhs0 (j : S128x1024.Idx) (q : dot_S128x1000_S1000x1024_S128x1024_1_0_0_1_n_n.contr.Idx) : (dot_S128x1000_S1000x1024_S128x1024_1_0_0_1_n_n.lhsIdx j q 0).val = (j 0).val := by
  unfold DotDims.lhsIdx
  rw [dif_neg (show ¬(0 : Fin S128x1000.rank) ∈ dot_S128x1000_S1000x1024_S128x1024_1_0_0_1_n_n.lhsBatch by decide), dif_pos (show (0 : Fin S128x1000.rank) ∈ dot_S128x1000_S1000x1024_S128x1024_1_0_0_1_n_n.lhsNonContracting by decide)]
  rfl
theorem dot_lhs1 (j : S128x1024.Idx) (q : dot_S128x1000_S1000x1024_S128x1024_1_0_0_1_n_n.contr.Idx) : (dot_S128x1000_S1000x1024_S128x1024_1_0_0_1_n_n.lhsIdx j q 1).val = (q ⟨0, by decide⟩).val :=
  dot_S128x1000_S1000x1024_S128x1024_1_0_0_1_n_n.lhsIdx_val_of_single rfl j q
theorem dot_rhs0 (j : S128x1024.Idx) (q : dot_S128x1000_S1000x1024_S128x1024_1_0_0_1_n_n.contr.Idx) : (dot_S128x1000_S1000x1024_S128x1024_1_0_0_1_n_n.rhsIdx j q 0).val = (q ⟨0, by decide⟩).val :=
  dot_S128x1000_S1000x1024_S128x1024_1_0_0_1_n_n.rhsIdx_val_of_single rfl j q
theorem dot_rhs1 (j : S128x1024.Idx) (q : dot_S128x1000_S1000x1024_S128x1024_1_0_0_1_n_n.contr.Idx) : (dot_S128x1000_S1000x1024_S128x1024_1_0_0_1_n_n.rhsIdx j q 1).val = (j 1).val := by
  unfold DotDims.rhsIdx
  rw [dif_neg (show ¬(1 : Fin S1000x1024.rank) ∈ dot_S128x1000_S1000x1024_S128x1024_1_0_0_1_n_n.rhsBatch by decide), dif_pos (show (1 : Fin S1000x1024.rank) ∈ dot_S128x1000_S1000x1024_S128x1024_1_0_0_1_n_n.rhsNonContracting by decide)]
  rfl

/-- A band's payload at row `p`, column `q`: the table block's row `p` against the indicator block's column `q`,
    the indicator words read as signed integers. -/
theorem pay2_apply (tb : Vec Ideal S128x1000 .f32) (xb : Vec Ideal S1000x1024 .i32) (p : Fin 128) (q : Fin 1024) :
    k0_pay2 (F := Ideal) tb xb (ix2 p q) = ∑ k : Fin 1000, tb (ix2 p k) * FloatOps.sitofp (F := Ideal) .f32 (xb (ix2 k q)) := by
  unfold k0_pay2 k0_pay1
  simp only [matmul]
  rw [Ideal.matmul_constant_zero_apply, ← Equiv.sum_comp (ValueIdx.contrEquiv1 dot_S128x1000_S1000x1024_S128x1024_1_0_0_1_n_n 1000 rfl rfl).symm]
  refine Finset.sum_congr rfl fun k _ => ?_
  have hk := ValueIdx.contrEquiv1_symm_val dot_S128x1000_S1000x1024_S128x1024_1_0_0_1_n_n 1000 rfl rfl k
  have el : dot_S128x1000_S1000x1024_S128x1024_1_0_0_1_n_n.lhsIdx (ix2 p q) ((ValueIdx.contrEquiv1 dot_S128x1000_S1000x1024_S128x1024_1_0_0_1_n_n 1000 rfl rfl).symm k) = ix2 p k := funext fun a => Fin.ext (by
    match a with
    | ⟨0, _⟩ => exact dot_lhs0 _ _
    | ⟨1, _⟩ => exact (dot_lhs1 _ _).trans hk)
  have er : dot_S128x1000_S1000x1024_S128x1024_1_0_0_1_n_n.rhsIdx (ix2 p q) ((ValueIdx.contrEquiv1 dot_S128x1000_S1000x1024_S128x1024_1_0_0_1_n_n 1000 rfl rfl).symm k) = ix2 k q := funext fun a => Fin.ext (by
    match a with
    | ⟨0, _⟩ => exact (dot_rhs0 _ _).trans hk
    | ⟨1, _⟩ => exact dot_rhs1 _ _)
  rw [el, er, shapeCast_self, shapeCast_self]
  rfl

/-- The other three bands' payloads are the same function of their blocks. -/
theorem pay3_eq : k0_pay3 (F := Ideal) = k0_pay2 := rfl
theorem pay4_eq : k0_pay4 (F := Ideal) = k0_pay2 := rfl
theorem pay5_eq : k0_pay5 (F := Ideal) = k0_pay2 := rfl

/-! ## The output array as one function of the two transposed arrays -/

/-- Entry `(d, n)` of the output array: row `d` of the transposed table against column `n` of the transposed
    indicator matrix, the indicator words read as signed integers. -/
def outSpec (xT : S1000x16384.Idx → BitVec 32) (tT : S128x1000.Idx → EReal) : S128x16384.Idx → EReal :=
  fun j => ∑ k : Fin 1000, tT (ix2 (j 0) k) * FloatOps.sitofp (F := Ideal) .f32 (xT (ix2 k (j 1)))

variable (m : (ℓ : Loc nD τ sig) → Buf (Elt Ideal) ℓ) (ρ : Dev nD → PrngReg)

theorem hzero : (![0, 0] : Fin 2 → Nat) = fun _ => 0 := funext fun a => by fin_cases a <;> rfl

/-- The printed index maps over the grid: at point `t` the indicator windows are at column blocks `4t … 4t+3`, the
    table window at the origin, the output window at column block `t`. -/
theorem idx_facts : ∀ t : Fin cfg0.N,
    win0_0.index t (0 : Fin 2) = 0 ∧ win0_0.index t (1 : Fin 2) = 4 * t.val + 0
    ∧ win0_1.index t (0 : Fin 2) = 0 ∧ win0_1.index t (1 : Fin 2) = 4 * t.val + 1
    ∧ win0_2.index t (0 : Fin 2) = 0 ∧ win0_2.index t (1 : Fin 2) = 4 * t.val + 2
    ∧ win0_3.index t (0 : Fin 2) = 0 ∧ win0_3.index t (1 : Fin 2) = 4 * t.val + 3
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- WHAT POINT `t` WRITES BACK is block `t` of `outSpec` of the two transposed arrays as the region finds them. -/
theorem flushed_eq (c : Dev nD) (t : Fin cfg0.N) :
    (dats m 0 c).flushed 5 t = ((cfg0.win 5).blk t).view.read (Elt Ideal) (outSpec (V m c main_call0_v0) (V m c main_call0_v1)) := by
  show (cfg0.win 5).cut (grid0.coords t) ((dats m 0 c).after 5 t) = _
  rw [after0_5]
  unfold outBlock
  simp only [View.ld_unit_zero (S := S128x1000) hzero, View.ld_unit_zero (S := S1000x1024) hzero, pay3_eq, pay4_eq, pay5_eq]
  funext j
  refine View.canon_apply_of_pieces (Val := Elt Ideal) (e := .f32) (S := S128x4096)
    (fun y => outSpec (V m c main_call0_v0) (V m c main_call0_v1) (((cfg0.win 5).blk t).view.emb y)) _ ?_ j (outCover _ _ _ _ j)
  intro pc hpc x
  obtain ⟨e00, e01, e10, e11, e20, e21, e30, e31, e40, e41, e50, e51⟩ := idx_facts t
  simp only [List.mem_cons, List.mem_nil_iff, or_false] at hpc
  rcases hpc with rfl | rfl | rfl | rfl
  · show k0_pay2 (iblk m c 4 t) (iblk m c 3 t) x
        = outSpec (V m c main_call0_v0) (V m c main_call0_v1) (((cfg0.win 5).blk t).view.emb (rO3.emb x))
    obtain ⟨p, q, rfl⟩ : ∃ (p : Fin 128) (q : Fin 1024), x = ix2 p q := ⟨x 0, x 1, eq_ix2 x⟩
    rw [pay2_apply]
    unfold outSpec
    refine Finset.sum_congr rfl fun k _ => ?_
    have hT : iblk m c 4 t (ix2 p k)
        = V m c main_call0_v1 (ix2 ((((cfg0.win 5).blk t).view.emb (rO3.emb (ix2 p q))) 0) k) := by
      show V m c main_call0_v1 (((cfg0.win 4).blk t).view.emb (ix2 p k)) = _
      refine congrArg _ (funext fun a => Fin.ext ?_)
      match a with
      | ⟨0, _⟩ => show win0_4.index t (0 : Fin 2) * 128 + 1 * p.val = win0_5.index t (0 : Fin 2) * 128 + 1 * (0 + 1 * p.val); omega
      | ⟨1, _⟩ => show win0_4.index t (1 : Fin 2) * 1000 + 1 * k.val = k.val; omega
    have hX : iblk m c 3 t (ix2 k q)
        = V m c main_call0_v0 (ix2 k ((((cfg0.win 5).blk t).view.emb (rO3.emb (ix2 p q))) 1)) := by
      show V m c main_call0_v0 (((cfg0.win 3).blk t).view.emb (ix2 k q)) = _
      refine congrArg _ (funext fun a => Fin.ext ?_)
      match a with
      | ⟨0, _⟩ => show win0_3.index t (0 : Fin 2) * 1000 + 1 * k.val = k.val; omega
      | ⟨1, _⟩ => show win0_3.index t (1 : Fin 2) * 1024 + 1 * q.val = win0_5.index t (1 : Fin 2) * 4096 + 1 * (3072 + 1 * q.val); omega
    rw [hT, hX]
  · show k0_pay2 (iblk m c 4 t) (iblk m c 2 t) x
        = outSpec (V m c main_call0_v0) (V m c main_call0_v1) (((cfg0.win 5).blk t).view.emb (rO2.emb x))
    obtain ⟨p, q, rfl⟩ : ∃ (p : Fin 128) (q : Fin 1024), x = ix2 p q := ⟨x 0, x 1, eq_ix2 x⟩
    rw [pay2_apply]
    unfold outSpec
    refine Finset.sum_congr rfl fun k _ => ?_
    have hT : iblk m c 4 t (ix2 p k)
        = V m c main_call0_v1 (ix2 ((((cfg0.win 5).blk t).view.emb (rO2.emb (ix2 p q))) 0) k) := by
      show V m c main_call0_v1 (((cfg0.win 4).blk t).view.emb (ix2 p k)) = _
      refine congrArg _ (funext fun a => Fin.ext ?_)
      match a with
      | ⟨0, _⟩ => show win0_4.index t (0 : Fin 2) * 128 + 1 * p.val = win0_5.index t (0 : Fin 2) * 128 + 1 * (0 + 1 * p.val); omega
      | ⟨1, _⟩ => show win0_4.index t (1 : Fin 2) * 1000 + 1 * k.val = k.val; omega
    have hX : iblk m c 2 t (ix2 k q)
        = V m c main_call0_v0 (ix2 k ((((cfg0.win 5).blk t).view.emb (rO2.emb (ix2 p q))) 1)) := by
      show V m c main_call0_v0 (((cfg0.win 2).blk t).view.emb (ix2 k q)) = _
      refine congrArg _ (funext fun a => Fin.ext ?_)
      match a with
      | ⟨0, _⟩ => show win0_2.index t (0 : Fin 2) * 1000 + 1 * k.val = k.val; omega
      | ⟨1, _⟩ => show win0_2.index t (1 : Fin 2) * 1024 + 1 * q.val = win0_5.index t (1 : Fin 2) * 4096 + 1 * (2048 + 1 * q.val); omega
    rw [hT, hX]
  · show k0_pay2 (iblk m c 4 t) (iblk m c 1 t) x
        = outSpec (V m c main_call0_v0) (V m c main_call0_v1) (((cfg0.win 5).blk t).view.emb (rO1.emb x))
    obtain ⟨p, q, rfl⟩ : ∃ (p : Fin 128) (q : Fin 1024), x = ix2 p q := ⟨x 0, x 1, eq_ix2 x⟩
    rw [pay2_apply]
    unfold outSpec
    refine Finset.sum_congr rfl fun k _ => ?_
    have hT : iblk m c 4 t (ix2 p k)
        = V m c main_call0_v1 (ix2 ((((cfg0.win 5).blk t).view.emb (rO1.emb (ix2 p q))) 0) k) := by
      show V m c main_call0_v1 (((cfg0.win 4).blk t).view.emb (ix2 p k)) = _
      refine congrArg _ (funext fun a => Fin.ext ?_)
      match a with
      | ⟨0, _⟩ => show win0_4.index t (0 : Fin 2) * 128 + 1 * p.val = win0_5.index t (0 : Fin 2) * 128 + 1 * (0 + 1 * p.val); omega
      | ⟨1, _⟩ => show win0_4.index t (1 : Fin 2) * 1000 + 1 * k.val = k.val; omega
    have hX : iblk m c 1 t (ix2 k q)
        = V m c main_call0_v0 (ix2 k ((((cfg0.win 5).blk t).view.emb (rO1.emb (ix2 p q))) 1)) := by
      show V m c main_call0_v0 (((cfg0.win 1).blk t).view.emb (ix2 k q)) = _
      refine congrArg _ (funext fun a => Fin.ext ?_)
      match a with
      | ⟨0, _⟩ => show win0_1.index t (0 : Fin 2) * 1000 + 1 * k.val = k.val; omega
      | ⟨1, _⟩ => show win0_1.index t (1 : Fin 2) * 1024 + 1 * q.val = win0_5.index t (1 : Fin 2) * 4096 + 1 * (1024 + 1 * q.val); omega
    rw [hT, hX]
  · show k0_pay2 (iblk m c 4 t) (iblk m c 0 t) x
        = outSpec (V m c main_call0_v0) (V m c main_call0_v1) (((cfg0.win 5).blk t).view.emb (rO0.emb x))
    obtain ⟨p, q, rfl⟩ : ∃ (p : Fin 128) (q : Fin 1024), x = ix2 p q := ⟨x 0, x 1, eq_ix2 x⟩
    rw [pay2_apply]
    unfold outSpec
    refine Finset.sum_congr rfl fun k _ => ?_
    have hT : iblk m c 4 t (ix2 p k)
        = V m c main_call0_v1 (ix2 ((((cfg0.win 5).blk t).view.emb (rO0.emb (ix2 p q))) 0) k) := by
      show V m c main_call0_v1 (((cfg0.win 4).blk t).view.emb (ix2 p k)) = _
      refine congrArg _ (funext fun a => Fin.ext ?_)
      match a with
      | ⟨0, _⟩ => show win0_4.index t (0 : Fin 2) * 128 + 1 * p.val = win0_5.index t (0 : Fin 2) * 128 + 1 * (0 + 1 * p.val); omega
      | ⟨1, _⟩ => show win0_4.index t (1 : Fin 2) * 1000 + 1 * k.val = k.val; omega
    have hX : iblk m c 0 t (ix2 k q)
        = V m c main_call0_v0 (ix2 k ((((cfg0.win 5).blk t).view.emb (rO0.emb (ix2 p q))) 1)) := by
      show V m c main_call0_v0 (((cfg0.win 0).blk t).view.emb (ix2 k q)) = _
      refine congrArg _ (funext fun a => Fin.ext ?_)
      match a with
      | ⟨0, _⟩ => show win0_0.index t (0 : Fin 2) * 1000 + 1 * k.val = k.val; omega
      | ⟨1, _⟩ => show win0_0.index t (1 : Fin 2) * 1024 + 1 * q.val = win0_5.index t (1 : Fin 2) * 4096 + 1 * (0 + 1 * q.val); omega
    rw [hT, hX]

/-- An index of the output array is in point `t`'s block iff each coordinate is in the block's range. -/
theorem mem_blk5 (t : Fin cfg0.N) (i : S128x16384.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_call0_v2).slice (win0_5.rect t)).set ↔ _
  rw [View.set_slice_whole, Rect.mem_set_unit]
  exact Iff.rfl

/-- Every index of the output array is in the block of the point its column falls in. -/
theorem out_cover (i : S128x16384.Idx) : ∃ t : Fin cfg0.N, (cfg0.win 5).flush t = true ∧ i ∈ ((cfg0.win 5).blk t).view.set := by
  have h0 : (i 0).val < 128 := (i 0).isLt
  have h1 : (i 1).val < 16384 := (i 1).isLt
  have hN : cfg0.N = 4 := N_0
  have ht : (i 1).val / 4096 < cfg0.N := by rw [hN]; omega
  refine ⟨⟨(i 1).val / 4096, ht⟩, flush0_5 _, ?_⟩
  rw [mem_blk5]
  obtain ⟨-, -, -, -, -, -, -, -, -, -, e50, e51⟩ := idx_facts ⟨(i 1).val / 4096, ht⟩
  intro a
  match a with
  | ⟨0, _⟩ =>
    show win0_5.index ⟨(i 1).val / 4096, ht⟩ (0 : Fin 2) * 128 ≤ (i 0).val ∧ (i 0).val < win0_5.index ⟨(i 1).val / 4096, ht⟩ (0 : Fin 2) * 128 + 128
    rw [e50]; omega
  | ⟨1, _⟩ =>
    show win0_5.index ⟨(i 1).val / 4096, ht⟩ (1 : Fin 2) * 4096 ≤ (i 1).val ∧ (i 1).val < win0_5.index ⟨(i 1).val / 4096, ht⟩ (1 : Fin 2) * 4096 + 4096
    rw [e51]; show (i 1).val / 4096 * 4096 ≤ (i 1).val ∧ (i 1).val < (i 1).val / 4096 * 4096 + 4096; omega

/-- THE OUTPUT ARRAY when the region is left. -/
theorem outArr_eq (c : Dev nD) : outArr m c = outSpec (V m c main_call0_v0) (V m c main_call0_v1) :=
  (dats m 0 c).arrAt_eq_of_cover 5 _ (fun t _ => flushed_eq m c t) out_cover

/-! ## The result as one function of the two arguments -/

/-- The region finds the transposed arguments in the two staged arrays. -/
theorem V_xT (c : Dev nD) : V m c main_call0_v0
    = transpose S1000x16384 [1, 0] (m ((c : Thread nD τ).loc main_arg0)) Gen.transposes_S16384x1000_S1000x16384_1_0 := by
  show StableHlo.after hostOps0 (fun b => m (c, b)) (Proc.devRef .tc main_call0_v0) = _
  after_results
  rfl
theorem V_tT (c : Dev nD) : V m c main_call0_v1
    = transpose S128x1000 [1, 0] (m ((c : Thread nD τ).loc main_arg1)) Gen.transposes_S1000x128_S128x1000_1_0 := by
  show StableHlo.after hostOps0 (fun b => m (c, b)) (Proc.devRef .tc main_call0_v1) = _
  after_results
  rfl

/-- Entry `(n, d)` of the result: column `d` of the table against row `n` of the indicator matrix, the indicator
    words read as signed integers. -/
def resSpec (x : S16384x1000.Idx → BitVec 32) (tab : S1000x128.Idx → EReal) : S16384x128.Idx → EReal :=
  fun i => ∑ k : Fin 1000, tab (ix2 k (i 1)) * FloatOps.sitofp (F := Ideal) .f32 (x (ix2 (i 0) k))

/-- THE RESULT BUFFER at the end: the three transposes cancel against the kernel's transposed product. -/
theorem resArr_eq (c : Dev nD) :
    resArr m c = resSpec (m ((c : Thread nD τ).loc main_arg0)) (m ((c : Thread nD τ).loc main_arg1)) := by
  funext i
  obtain ⟨n, d, rfl⟩ : ∃ (n : Fin 16384) (d : Fin 128), i = ix2 n d := ⟨i 0, i 1, eq_ix2 i⟩
  show transpose S16384x128 [1, 0] (outArr m c) Gen.transposes_S128x16384_S16384x128_1_0 (ix2 n d) = _
  rw [transpose_ix2_apply, outArr_eq, V_xT, V_tT]
  unfold outSpec resSpec
  refine Finset.sum_congr rfl fun k _ => ?_
  rw [transpose_ix2_apply, transpose_ix2_apply]

/-- THE RUN, READ: the result buffer ends at `resSpec` of the arguments, which end as launched. -/
theorem run_value : θ_run defs (onTc (τ := τ) (main (F := Ideal))) ⟨m, fun _ => 0, ρ⟩ (fun r => ∀ c : Dev nD,
      r.2.mem ((c.tc : Thread nD τ).loc main_v0) = resSpec (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.2.2.trans (resArr_eq m c), (h c).2.1.trans (V_main_arg0 m c), (h c).2.2.1.trans (V_main_arg1 m c)⟩)
    (run_main m ρ)

end Cert.KernelIdeal.Hand

end
-- ==== Proof.MaskPre.lean ====
/-
  The added domain conjunct, decoded: where the precondition holds, every word of the indicator matrix is 0 or 1.

  The precondition is the conjunction of "every table entry is finite" and "every indicator word equals 0 or equals
  1", each a reduce-by-and over its array; a reduce-by-and that is 1 had a 1 at every index.
-/
import proofs.«116785_g39505109189164_cont_8to1_b_1271_15_alg».proof.Pre_finite_inputs
import Idealize.ShloMosaic.Lib.ReduceAll
import Idealize.ShloMosaic.Lib.ValueIdx

noncomputable section

namespace Cert.Pre_finite_inputs.Hand

open Idealize.ShloMosaic Cert.Pre_finite_inputs

instance : Subsingleton S_.Idx := ⟨fun a b => funext fun d => d.elim0⟩

/-- Under the precondition every indicator word is 0 or 1. -/
theorem indicator_of_pre [Facts] {F : FTy → Type} [FloatOps F] (x : IVec S16384x1000 32) (tab : FVec F S1000x128 .f32)
    (h : fn (F := F) x tab = fun _ => 1#1) (i : S16384x1000.Idx) : x i = 0#32 ∨ x i = 1#32 := by
  have h0 := congrFun h ValueIdx.ix0
  dsimp only [fn] at h0
  have h1 := (IntOp.andi_eq_one.mp h0).2
  have h2 := Host.reduce_andi_all _ _ _ _ _ h1 i
  rcases IntOp.ori_eq_one.mp h2 with e | e
  · exact Or.inl (IntOp.cmpi_eq.mp e)
  · exact Or.inr (IntOp.cmpi_eq.mp e)

end Cert.Pre_finite_inputs.Hand

end
-- ==== Proof.Bridge.lean ====
/-
  The two programs compute one function on indicator matrices.

  The kernel's result at `(n, d)` is the sum over `k` of `table(k, d) · x(n, k)` with the word `x(n, k)` read as a
  signed integer; the reference's is the sum over `k` of `[x(n, k) ≠ 0] · table(k, d)`.  For a word that is 0 or 1
  the signed reading IS the mask's value (0 or 1), and the product of two extended reals commutes, so the sums agree
  term by term.  (For a word such as 2 they differ: that is why the domain conjunct is needed.)
-/
import proofs.«116785_g39505109189164_cont_8to1_b_1271_15_alg».proof.Proof.KernelIdealValue
import proofs.«116785_g39505109189164_cont_8to1_b_1271_15_alg».proof.Proof.Gen.ReferenceIdeal.Read

noncomputable section

namespace Cert.Bridge

open Idealize.ShloMosaic Idealize.ShloMosaic.ValueIdx

/-- An indicator word read as a signed integer is the float the mask `word ≠ 0` converts to. -/
theorem indicator_eq (b : BitVec 32) (h : b = 0#32 ∨ b = 1#32) :
    FloatOps.sitofp (F := Ideal) .f32 b = FloatOps.uitofp (F := Ideal) .f32 (IntOp.cmpi .ne b 0#32) := by
  rcases h with rfl | rfl
  · show (((0#32 : BitVec 32).toInt : ℝ) : EReal) = (((IntOp.cmpi .ne (0#32 : BitVec 32) 0#32).toNat : ℝ) : EReal)
    rw [show (0#32 : BitVec 32).toInt = 0 by decide, show (IntOp.cmpi .ne (0#32 : BitVec 32) 0#32).toNat = 0 by decide]
    simp
  · show (((1#32 : BitVec 32).toInt : ℝ) : EReal) = (((IntOp.cmpi .ne (1#32 : BitVec 32) 0#32).toNat : ℝ) : EReal)
    rw [show (1#32 : BitVec 32).toInt = 1 by decide, show (IntOp.cmpi .ne (1#32 : BitVec 32) 0#32).toNat = 1 by decide]
    simp

/-- On an indicator matrix the reference's result is the kernel's. -/
theorem ref_eq (x : (⟨Cert.ReferenceIdeal.S16384x1000, .i32⟩ : BufTy).Contents (Elt Ideal))
    (tab : (⟨Cert.ReferenceIdeal.S1000x128, .f32⟩ : BufTy).Contents (Elt Ideal))
    (hx : ∀ j, x j = 0#32 ∨ x j = 1#32) :
    Cert.ReferenceIdeal.Read.val_main_v3 (F := Ideal) x tab = Cert.KernelIdeal.Hand.resSpec x tab := by
  funext i
  rw [Cert.ReferenceIdeal.Read.val_main_v3_apply]
  unfold Cert.KernelIdeal.Hand.resSpec
  refine Finset.sum_congr rfl fun k _ => ?_
  have el : Cert.ReferenceIdeal.Read.lidx_main_v3 i k = ix2 (i 0) k :=
    funext fun a => Fin.ext (by match a with | ⟨0, _⟩ => rfl | ⟨1, _⟩ => rfl)
  have er : Cert.ReferenceIdeal.Read.ridx_main_v3 i k = ix2 k (i 1) :=
    funext fun a => Fin.ext (by match a with | ⟨0, _⟩ => rfl | ⟨1, _⟩ => rfl)
  rw [Cert.ReferenceIdeal.Read.val_main_v2_apply, Cert.ReferenceIdeal.Read.val_main_v1_apply,
    Cert.ReferenceIdeal.Read.val_main_v0_apply, Cert.ReferenceIdeal.Read.val_main_c_apply, el, er,
    indicator_eq _ (hx _), mul_comm]
  rfl

end Cert.Bridge

end
-- ==== Proof.lean ====
/-
  The masked-matmul kernel against its reference: `Cert.Claim`.

  The kernel computes, for a multi-hot indicator matrix `x` (16384 × 1000, words 0 or 1) and an embedding table
  (1000 × 128), the product of `x` read as numbers with the table, working on the transposes: it streams blocks of
  `xᵀ` through four windows on one array, multiplies `tableᵀ` by each, and transposes the product back.  The
  reference multiplies the mask `x ≠ 0`, converted to floats, by the table.

  On indicator words the signed reading of a word is the mask's value, so both results are, entry by entry, the same
  sum over the 1000 categories, at the extended reals (no law beyond commutativity of the product is used, so the
  table's finiteness is never opened).  Outside `{0, 1}` the two differ (a word 2 counts twice in the kernel, once
  in the reference), which is why the precondition carries the indicator conjunct.

  The frames: each kernel program runs to its end and leaves its arguments alone (the run of the pipeline with the
  shared indicator array dealt in quarter shares); the reference's frame is its run with the result dropped.
  `preserves` has no entry: the idealized kernel is the kernel's own text read at the ideal instance.
-/
import proofs.«116785_g39505109189164_cont_8to1_b_1271_15_alg».proof.Defs
import proofs.«116785_g39505109189164_cont_8to1_b_1271_15_alg».proof.Proof.Gen.Kernel
import proofs.«116785_g39505109189164_cont_8to1_b_1271_15_alg».proof.Proof.Gen.Kernel.Skeleton
import proofs.«116785_g39505109189164_cont_8to1_b_1271_15_alg».proof.Proof.Gen.Kernel.Launch
import proofs.«116785_g39505109189164_cont_8to1_b_1271_15_alg».proof.Proof.Gen.Kernel.Points
import proofs.«116785_g39505109189164_cont_8to1_b_1271_15_alg».proof.Proof.Gen.KernelIdeal
import proofs.«116785_g39505109189164_cont_8to1_b_1271_15_alg».proof.Proof.Gen.KernelIdeal.Skeleton
import proofs.«116785_g39505109189164_cont_8to1_b_1271_15_alg».proof.Proof.Gen.KernelIdeal.Launch
import proofs.«116785_g39505109189164_cont_8to1_b_1271_15_alg».proof.Proof.Gen.KernelIdeal.Points
import proofs.«116785_g39505109189164_cont_8to1_b_1271_15_alg».proof.Proof.Gen.ReferenceIdeal
import proofs.«116785_g39505109189164_cont_8to1_b_1271_15_alg».proof.Proof.Gen.ReferenceIdeal.Run
import proofs.«116785_g39505109189164_cont_8to1_b_1271_15_alg».proof.Proof.Gen.ReferenceIdeal.Read
import proofs.«116785_g39505109189164_cont_8to1_b_1271_15_alg».proof.Proof.Gen.Pre_finite_inputs
import proofs.«116785_g39505109189164_cont_8to1_b_1271_15_alg».proof.Proof.KernelRun
import proofs.«116785_g39505109189164_cont_8to1_b_1271_15_alg».proof.Proof.KernelIdealValue
import proofs.«116785_g39505109189164_cont_8to1_b_1271_15_alg».proof.Proof.MaskPre
import proofs.«116785_g39505109189164_cont_8to1_b_1271_15_alg».proof.Proof.Bridge
import Idealize.ShloMosaic.Adequacy
import Idealize.ShloMosaic.Init

noncomputable section

namespace Cert.Proof

open Idealize.ShloMosaic Idealize.SL.Sem

/-- The word-level kernel runs to its end and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on an indicator matrix and a table, both programs end with the same result: the sum
    over the categories of `table(k, d) · x(n, k)`. -/
theorem algebraic : Cert.algebraic_KernelIdeal_ReferenceIdeal := by
  intro m ρ m' ρ' hpre hagree
  refine ⟨fun c => Cert.KernelIdeal.Hand.resSpec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2]
  exact Cert.Bridge.ref_eq _ _ (Cert.Pre_finite_inputs.Hand.indicator_of_pre _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
